-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  main_v18

def fn {F : FTy → Type} [FloatOps F] (main_arg0 : FVec F S100000x256 .f32) (main_arg1 : FVec F S100000x256 .f32) (main_arg2 : FVec F S256x128 .f32) (main_arg3 : IVec S1600000 32) (main_arg4 : IVec S1600000 32) (main_arg5 : FVec F S1600000 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S1600000 .f32 := Host.absf main_arg5
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_v13 main_v16
-- ==== Kernel.lean ====
abbrev S100000x256 : Shape := ⟨2, ![100000, 256]⟩
abbrev S256x128 : Shape := ⟨2, ![256, 128]⟩
abbrev S1600000 : Shape := ⟨1, ![1600000]⟩
abbrev S100000x128 : Shape := ⟨2, ![100000, 128]⟩
abbrev S4000x256 : Shape := ⟨2, ![4000, 256]⟩
abbrev S4000x128 : Shape := ⟨2, ![4000, 128]⟩
abbrev S1600000x1 : Shape := ⟨2, ![1600000, 1]⟩
abbrev S_ : Shape := ⟨0, ![]⟩
abbrev S1600000x128 : Shape := ⟨2, ![1600000, 128]⟩
abbrev S10000x128 : Shape := ⟨2, ![10000, 128]⟩

abbrev nBuf : Space → Nat
  | .hbm => 24
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S256x128, .f32⟩
  | .hbm, ⟨3, _⟩ => ⟨S1600000, .i32⟩
  | .hbm, ⟨4, _⟩ => ⟨S1600000, .i32⟩
  | .hbm, ⟨5, _⟩ => ⟨S1600000, .f32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x128, .f32⟩
  | .local _ .vmem, ⟨0, _⟩ => ⟨S4000x256, .f32⟩
  | .local _ .vmem, ⟨1, _⟩ => ⟨S4000x256, .f32⟩
  | .local _ .vmem, ⟨2, _⟩ => ⟨S4000x256, .f32⟩
  | .local _ .vmem, ⟨3, _⟩ => ⟨S4000x256, .f32⟩
  | .local _ .vmem, ⟨4, _⟩ => ⟨S256x128, .f32⟩
  | .local _ .vmem, ⟨5, _⟩ => ⟨S4000x128, .f32⟩
  | .local _ .vmem, ⟨6, _⟩ => ⟨S4000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  dot_S4000x256_S256x128_S4000x128_1_0_0_1_n_n_wf : DotDims.WF S4000x256 S256x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S100000x256.size a
  hwx0_1 : ∀ i : grid0.Coords, EltTy.bits .f32 = 32 ∨ (Rect.block (s := S100000x256) S4000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)

variable [Facts₀]

def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S1600000 : Shape := ⟨1, ![1600000]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 27
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S256x128, .f32⟩
  | .hbm, ⟨3, _⟩ => ⟨S1600000, .i32⟩
  | .hbm, ⟨4, _⟩ => ⟨S1600000, .i32⟩
  | .hbm, ⟨5, _⟩ => ⟨S1600000, .f32⟩
  | .hbm, ⟨6, _⟩ => ⟨S100000x256, .f32⟩
  | .hbm, ⟨7, _⟩ => ⟨S100000x128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S100000x128, .f32⟩
  | .hbm, ⟨26, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibBand.lean ====
/-
  A band of rows of a matrix product is the product of the band.

  Entry (p, q) of a product is the sum over l of A (p, l) * W (l, q): it reads one row of the left factor.  So if the
  short array "a" holds rows o, o + 1, … of the tall array "A", then the product "a * W" at (p, q) is the product
  "A * W" at (o + p, q).  Both sides are the same sum of the same products: nothing about finiteness is used.
-/
import proofs.«133706_j74019466379479_1_alg».proof.Proof.LibMatProd

noncomputable section

open scoped BigOperators

namespace MatProd

open Idealize.ShloMosaic Idealize.ShloMosaic.ValueIdx

/-- The band of the product is the product of the band. "ha": row p of "a" is row r of "A" whenever r = o + p. -/
theorem mm_band {N n k m : ℕ} (A : (⟨2, ![N, k]⟩ : Shape).Idx → EReal) (a : (⟨2, ![n, k]⟩ : Shape).Idx → EReal)
    (W : (⟨2, ![k, m]⟩ : Shape).Idx → EReal) (o : ℕ)
    (ha : ∀ (p : Fin n) (r : Fin N), r.val = o + p.val → ∀ l : Fin k, a (ix2 p l) = A (ix2 r l))
    (j : (⟨2, ![n, m]⟩ : Shape).Idx) (i : (⟨2, ![N, m]⟩ : Shape).Idx)
    (h0 : (i 0).val = o + (j 0).val) (h1 : (i 1).val = (j 1).val) :
    mm a W j = mm A W i := by
  unfold mm entry
  have hq : (⟨(i 1).val, idx2_lt1 i⟩ : Fin m) = ⟨(j 1).val, idx2_lt1 j⟩ := Fin.ext h1
  rw [hq]
  refine Finset.sum_congr rfl fun l _ => ?_
  rw [ha ⟨(j 0).val, idx2_lt0 j⟩ ⟨(i 0).val, idx2_lt0 i⟩ h0 l]

end MatProd

end
-- ==== Proof.LibProdRows.lean ====
/-
  Two facts about products of rank-2 arrays of extended reals, over generic extents, beside `MatProd.entry` / `mm`.

  First, a dimension-numbers record that contracts the columns of its left operand against the rows of its right
  one (`MatProd.Plain`: one contracted axis of the inner extent, the left operand read at (result row, contracted
  coordinate), the right operand at (contracted coordinate, result column)) makes both spellings of a product the
  array `mm`: the matrix unit's product onto the zero accumulator (`matmul_zero_mm`) and the host's
  dot_general (`dotGeneral_mm`).

  Second, the band law `entry_mm_rows`: if row `p` of a short array `a` is row `r` of a tall array `A`, then
  entry (p, q) of (a * W1) * W2 is entry (r, q) of (A * W1) * W2.  Each entry of a two-fold product depends on one
  row of the leftmost factor only, so a band of rows of the product is the product of the band.  No finiteness is
  used: the two sides are the same sums of the same products.
-/
import proofs.«133706_j74019466379479_1_alg».proof.Proof.LibMatProd

noncomputable section

open scoped BigOperators

namespace MatProd

open Idealize.ShloMosaic Idealize.ShloMosaic.ValueIdx

/-- The record contracts the left operand's columns against the right operand's rows, and nothing else. -/
structure Plain {n k m : ℕ} (d : DotDims (⟨2, ![n, k]⟩ : Shape) (⟨2, ![k, m]⟩ : Shape) (⟨2, ![n, m]⟩ : Shape)) : Prop where
  hr : d.contr.rank = 1
  hs : d.contr.size ⟨0, by omega⟩ = k
  hl0 : ∀ (j : (⟨2, ![n, m]⟩ : Shape).Idx) (c : d.contr.Idx), (d.lhsIdx j c 0).val = (j 0).val
  hl1 : ∀ (j : (⟨2, ![n, m]⟩ : Shape).Idx) (c : d.contr.Idx), (d.lhsIdx j c 1).val = (c ⟨0, by omega⟩).val
  hr0 : ∀ (j : (⟨2, ![n, m]⟩ : Shape).Idx) (c : d.contr.Idx), (d.rhsIdx j c 0).val = (c ⟨0, by omega⟩).val
  hr1 : ∀ (j : (⟨2, ![n, m]⟩ : Shape).Idx) (c : d.contr.Idx), (d.rhsIdx j c 1).val = (j 1).val

/-- The matrix unit's product onto the zero accumulator is the product array. -/
theorem matmul_zero_mm {n k m : ℕ} {φ₁ φ₂ : FTy}
    {d : DotDims (⟨2, ![n, k]⟩ : Shape) (⟨2, ![k, m]⟩ : Shape) (⟨2, ![n, m]⟩ : Shape)} (h : Plain d)
    (prec : Option ContractPrecision) (lhs : FVec Ideal (⟨2, ![n, k]⟩ : Shape) φ₁) (rhs : FVec Ideal (⟨2, ![k, m]⟩ : Shape) φ₂) :
    FloatOps.matmul d prec lhs rhs (constant (F := Ideal) (⟨2, ![n, m]⟩ : Shape) .f32 0x00000000#32) = mm lhs rhs := by
  funext i
  obtain ⟨p, q, rfl⟩ : ∃ (p : Fin n) (q : Fin m), i = ix2 p q := ⟨i 0, i 1, eq_ix2 i⟩
  rw [matmul_zero_entry d prec h.hr h.hs h.hl0 h.hl1 h.hr0 h.hr1 lhs rhs p q, mm_ix2]

/-- The host's dot_general at one pair of coordinates is the product's entry. -/
theorem dotGeneral_entry {n k m : ℕ} {φ₁ φ₂ : FTy}
    {d : DotDims (⟨2, ![n, k]⟩ : Shape) (⟨2, ![k, m]⟩ : Shape) (⟨2, ![n, m]⟩ : Shape)} (h : Plain d)
    (prec : Option ContractPrecision) (sched : HostSchedule)
    (lhs : FVec Ideal (⟨2, ![n, k]⟩ : Shape) φ₁) (rhs : FVec Ideal (⟨2, ![k, m]⟩ : Shape) φ₂) (p : Fin n) (q : Fin m) :
    FloatOps.dotGeneral d prec sched lhs rhs (ix2 p q) = entry lhs rhs p q := by
  rw [Ideal.dotGeneral_apply, ← Equiv.sum_comp (contrEquiv1 d k h.hr h.hs).symm]
  unfold entry
  refine Finset.sum_congr rfl fun l _ => ?_
  have hk := contrEquiv1_symm_val d k h.hr h.hs l
  have el : d.lhsIdx (ix2 p q) ((contrEquiv1 d k h.hr h.hs).symm l) = ix2 p l := funext fun a => Fin.ext (by
    match a with
    | ⟨0, _⟩ => exact h.hl0 _ _
    | ⟨1, _⟩ => exact (h.hl1 _ _).trans hk)
  have er : d.rhsIdx (ix2 p q) ((contrEquiv1 d k h.hr h.hs).symm l) = ix2 l q := funext fun a => Fin.ext (by
    match a with
    | ⟨0, _⟩ => exact (h.hr0 _ _).trans hk
    | ⟨1, _⟩ => exact h.hr1 _ _)
  rw [el, er]

/-- The host's dot_general is the product array. -/
theorem dotGeneral_mm {n k m : ℕ} {φ₁ φ₂ : FTy}
    {d : DotDims (⟨2, ![n, k]⟩ : Shape) (⟨2, ![k, m]⟩ : Shape) (⟨2, ![n, m]⟩ : Shape)} (h : Plain d)
    (prec : Option ContractPrecision) (sched : HostSchedule)
    (lhs : FVec Ideal (⟨2, ![n, k]⟩ : Shape) φ₁) (rhs : FVec Ideal (⟨2, ![k, m]⟩ : Shape) φ₂) :
    FloatOps.dotGeneral d prec sched lhs rhs = mm lhs rhs := by
  funext i
  obtain ⟨p, q, rfl⟩ : ∃ (p : Fin n) (q : Fin m), i = ix2 p q := ⟨i 0, i 1, eq_ix2 i⟩
  rw [dotGeneral_entry h, mm_ix2]

/-- THE BAND LAW.  If row `p` of `a` is row `r` of `A`, entry (p, q) of (a * W1) * W2 is entry (r, q) of (A * W1) * W2. -/
theorem entry_mm_rows {N n k h m : ℕ} (A : (⟨2, ![N, k]⟩ : Shape).Idx → EReal) (a : (⟨2, ![n, k]⟩ : Shape).Idx → EReal)
    (W1 : (⟨2, ![k, h]⟩ : Shape).Idx → EReal) (W2 : (⟨2, ![h, m]⟩ : Shape).Idx → EReal) (p : Fin n) (r : Fin N)
    (hrow : ∀ l, a (ix2 p l) = A (ix2 r l)) (q : Fin m) :
    entry (mm a W1) W2 p q = entry (mm A W1) W2 r q := by
  unfold entry
  refine Finset.sum_congr rfl fun x _ => ?_
  rw [mm_ix2, mm_ix2]
  unfold entry
  rw [Finset.sum_congr rfl fun l _ => by rw [hrow l]]

end MatProd

end
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.Dense.lean ====
/-
  The dense projection of both programs, as one array.

  With h = x * mask taken entry by entry, the projection is the matrix product h * W: entry (r, q) is the sum over l
  of h (r, l) * W (l, q).  The kernel forms it 4000 rows at a time on the matrix unit, onto a zero accumulator, after
  a change of float format that is the identity on extended reals; the reference forms it in one dot_general.  Both
  records of dimension numbers contract the columns of the left operand against the rows of the right one, so both
  spellings are the product array, and a band of 4000 rows of the product is the product of the band: each entry reads
  one row of h only.  Nothing here needs finiteness: the two sides are the same sums of the same products.
-/
import proofs.«133706_j74019466379479_1_alg».proof.Proof.Gen.KernelIdeal.Skeleton
import proofs.«133706_j74019466379479_1_alg».proof.Proof.Gen.ReferenceIdeal
import proofs.«133706_j74019466379479_1_alg».proof.Proof.LibMatProd
import proofs.«133706_j74019466379479_1_alg».proof.Proof.LibBand
import proofs.«133706_j74019466379479_1_alg».proof.Proof.LibProdRows
import proofs.«133706_j74019466379479_1_alg».proof.Proof.LibDot2

noncomputable section

open Idealize.ShloMosaic Idealize.ShloMosaic.ValueIdx

namespace Cert.Layer

/-- The entrywise product of two arrays of one shape. -/
def had {s : Shape} (a b : s.Idx → EReal) : s.Idx → EReal := fun i => a i * b i

theorem had_apply {s : Shape} (a b : s.Idx → EReal) (i : s.Idx) : had a b i = a i * b i := rfl

/-- The dense projection: (x * mask) times the weights. -/
def proj (x mask : (⟨2, ![100000, 256]⟩ : Shape).Idx → EReal) (W : (⟨2, ![256, 128]⟩ : Shape).Idx → EReal) :
    (⟨2, ![100000, 128]⟩ : Shape).Idx → EReal :=
  MatProd.mm (had x mask) W

/-- One entry of a row block's product is the entry of the whole product in the block's row: the blocks of x and of
    the mask start at row o of their arrays, the weight block is the weight array. -/
theorem band (A0 A1 : (⟨2, ![100000, 256]⟩ : Shape).Idx → EReal) (A2 : (⟨2, ![256, 128]⟩ : Shape).Idx → EReal)
    (x0 x1 : (⟨2, ![4000, 256]⟩ : Shape).Idx → EReal) (x2 : (⟨2, ![256, 128]⟩ : Shape).Idx → EReal) (o : ℕ)
    (h0 : ∀ (p : Fin 4000) (r : Fin 100000), r.val = o + p.val → ∀ l : Fin 256, x0 (ix2 p l) = A0 (ix2 r l))
    (h1 : ∀ (p : Fin 4000) (r : Fin 100000), r.val = o + p.val → ∀ l : Fin 256, x1 (ix2 p l) = A1 (ix2 r l))
    (h2 : x2 = A2)
    (j : (⟨2, ![4000, 128]⟩ : Shape).Idx) (i : (⟨2, ![100000, 128]⟩ : Shape).Idx)
    (hi0 : (i 0).val = o + (j 0).val) (hi1 : (i 1).val = (j 1).val) :
    MatProd.mm (had x0 x1) x2 j = proj A0 A1 A2 i := by
  subst h2
  exact MatProd.mm_band (had A0 A1) (had x0 x1) x2 o
    (fun p r hr l => by rw [had_apply, had_apply, h0 p r hr l, h1 p r hr l]) j i hi0 hi1

end Cert.Layer

namespace Cert.KernelIdeal.Dense

open Cert.KernelIdeal Cert.KernelIdeal.Gen Cert.Layer

/-- The matrix unit's record contracts columns against rows. -/
theorem plain : MatProd.Plain dot_S4000x256_S256x128_S4000x128_1_0_0_1_n_n where
  hr := Dot2.rank_contr _ rfl
  hs := Dot2.size_contr _ rfl _
  hl0 := Dot2.lhs0 _ rfl rfl
  hl1 := Dot2.lhs1 _ rfl _
  hr0 := Dot2.rhs0 _ rfl _
  hr1 := Dot2.rhs1 _ rfl rfl rfl rfl

/-- What the body stores: the product of the entrywise product of its two row blocks with the weight block. -/
theorem pay_eq (x0 x1 : Vec Ideal S4000x256 .f32) (x2 : Vec Ideal S256x128 .f32) :
    k0_pay1 x0 x1 x2 = MatProd.mm (had x0 x1) x2 := by
  unfold k0_pay1
  exact MatProd.matmul_zero_mm plain none _ _

end Cert.KernelIdeal.Dense

namespace Cert.ReferenceIdeal.Dense

open Cert.ReferenceIdeal Cert.Layer

/-- The reference's record contracts columns against rows. -/
theorem plain : MatProd.Plain dot_S100000x256_S256x128_S100000x128_1_0_0_1_n_n where
  hr := Dot2.rank_contr _ rfl
  hs := Dot2.size_contr _ rfl _
  hl0 := Dot2.lhs0 _ rfl rfl
  hl1 := Dot2.lhs1 _ rfl _
  hr0 := Dot2.rhs0 _ rfl _
  hr1 := Dot2.rhs1 _ rfl rfl rfl rfl

/-- The reference's dot_general of the entrywise product is the dense projection. -/
theorem dot_eq (x mask : FVec Ideal S100000x256 .f32) (W : FVec Ideal S256x128 .f32) :
    Host.dotGeneral dot_S100000x256_S256x128_S100000x128_1_0_0_1_n_n none (mulf x mask) W = proj x mask W := by
  simp only [Host.dotGeneral]
  exact MatProd.dotGeneral_mm plain none _ _ _

end Cert.ReferenceIdeal.Dense

end
-- ==== Proof.ProjRegion.lean ====
/-
  The first pallas_call writes the dense projection.

  Its grid has 25 points.  At point t the kernel reads rows 4000 t … 4000 t + 3999 of x and of the mask, the whole
  weight array, and writes rows 4000 t … 4000 t + 3999 of its result: the product of the entrywise product of the two
  row blocks with the weights.  A band of rows of a product is the product of the band, so what point t writes back is
  block t of the dense projection of the whole arrays; the 25 blocks tile the 100000 rows (row r lies in block
  r / 4000), so after the region the result array is the dense projection of the arrays the region found.
-/
import proofs.«133706_j74019466379479_1_alg».proof.Proof.Gen.KernelIdeal.Frame
import proofs.«133706_j74019466379479_1_alg».proof.Proof.Dense
import Idealize.ShloMosaic.Lib.Pipeline.Value

set_option maxRecDepth 16384

noncomputable section

namespace Cert.KernelIdeal.ProjRegion

open Cert.KernelIdeal Cert.KernelIdeal.Gen Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row windows move with the result window along the rows, every
    window sits at column block 0, the weight window stays at block (0, 0), and the result's row block is below 25. -/
theorem idx_facts : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (0 : Fin 2) ≤ 24
    ∧ win0_3.index t (1 : Fin 2) = 0 :=
  (by decide +kernel : ∀ t : Fin grid0.N, _)

/-- Every row block is some point's. -/
theorem idx_onto : ∀ q0 : Fin 25, ∃ t : Fin cfg0.N, win0_3.index t = ![q0.val, 0] :=
  (by decide +kernel : ∀ q0 : Fin 25, ∃ t : Fin grid0.N, win0_3.index t = ![q0.val, 0])

/-- WHAT POINT t WRITES BACK is block t of the dense projection of the arrays as the region finds them. -/
theorem flushed_eq (c : Dev nD) (t : Fin cfg0.N) :
    (dat0 V c).flushed 3 t
      = ((cfg0.win 3).blk t).view.read (Elt Ideal) (proj (V c main_arg0) (V c main_arg1) (V c main_arg2)) := by
  show (cfg0.win 3).cut (grid0.coords t) ((dat0 V c).after 3 t) = _
  rw [after0_3]
  unfold out0_3
  rw [View.canon_unit_zero hz]
  simp only [View.ld_unit_zero (S := S4000x256) hz, View.ld_unit_zero (S := S256x128) hz]
  rw [Dense.pay_eq]
  obtain ⟨e0, e1, e2, e3, e4, e5, e6, e7⟩ := idx_facts t
  funext j
  refine band (V c main_arg0) (V c main_arg1) (V c main_arg2) _ _ _ (win0_3.index t (0 : Fin 2) * 4000) ?_ ?_ ?_ j _ ?_ ?_
  · intro p r hr l
    show V c main_arg0 (((cfg0.win 0).blk t).view.emb (ix2 p l)) = V c main_arg0 (ix2 r l)
    refine congrArg _ (funext fun a => Fin.ext ?_)
    match a with
    | ⟨0, _⟩ => show win0_0.index t (0 : Fin 2) * 4000 + 1 * p.val = r.val; omega
    | ⟨1, _⟩ => show win0_0.index t (1 : Fin 2) * 256 + 1 * l.val = l.val; omega
  · intro p r hr l
    show V c main_arg1 (((cfg0.win 1).blk t).view.emb (ix2 p l)) = V c main_arg1 (ix2 r l)
    refine congrArg _ (funext fun a => Fin.ext ?_)
    match a with
    | ⟨0, _⟩ => show win0_1.index t (0 : Fin 2) * 4000 + 1 * p.val = r.val; omega
    | ⟨1, _⟩ => show win0_1.index t (1 : Fin 2) * 256 + 1 * l.val = l.val; omega
  · funext y
    show V c main_arg2 (((cfg0.win 2).blk t).view.emb y) = V c main_arg2 y
    refine congrArg _ (funext fun a => Fin.ext ?_)
    match a with
    | ⟨0, _⟩ => show win0_2.index t (0 : Fin 2) * 256 + 1 * (y 0).val = (y 0).val; omega
    | ⟨1, _⟩ => show win0_2.index t (1 : Fin 2) * 128 + 1 * (y 1).val = (y 1).val; omega
  · show win0_3.index t (0 : Fin 2) * 4000 + 1 * (j 0).val = win0_3.index t (0 : Fin 2) * 4000 + (j 0).val; omega
  · show win0_3.index t (1 : Fin 2) * 128 + 1 * (j 1).val = (j 1).val; omega

/-- An index of the result array is in point t's block iff each coordinate is in the block's range on its axis. -/
theorem mem_blk (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v0).slice (win0_3.rect t)).set ↔ _
  rw [View.set_slice_whole, Rect.mem_set_unit]
  exact Iff.rfl

/-- The 25 row blocks cover the result array: row r lies in block r / 4000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- THE RESULT ARRAY after the region: the dense projection of the arrays the region found. -/
theorem final (c : Dev nD) :
    (dat0 V c).arrAt 3 cfg0.N = proj (V c main_arg0) (V c main_arg1) (V c main_arg2) :=
  (dat0 V c).arrAt_eq_of_cover 3 (proj (V c main_arg0) (V c main_arg1) (V c main_arg2))
    (fun t _ => flushed_eq V c t) cover

end Cert.KernelIdeal.ProjRegion

end
-- ==== Proof.Relu.lean ====
/-
  The rectifier, as one function of an array: entry by entry the larger of the entry and zero.

  The kernel's body takes the maximum of its block (after a shape cast to the same shape, which changes nothing) and a
  splat of the word of +0.0; the reference takes the maximum of its array and a rank-0 constant of the same word
  broadcast to the array's shape.  Both are the rectifier; the word is never evaluated.
-/
import proofs.«133706_j74019466379479_1_alg».proof.Proof.Gen.KernelIdeal.Skeleton
import proofs.«133706_j74019466379479_1_alg».proof.Proof.Gen.ReferenceIdeal
import Idealize.ShloMosaic.Lib.Pipeline.Value
import Idealize.ShloMosaic.Lib.ValueIdx

noncomputable section

open Idealize.ShloMosaic Idealize.ShloMosaic.ValueIdx

namespace Cert.Layer

/-- The rectifier: each entry against the word of +0.0 read as an extended real. -/
def relu {s : Shape} (v : s.Idx → EReal) : s.Idx → EReal := fun i => max (v i) (Ideal.ofBits .f32 0x00000000#32)

theorem relu_apply {s : Shape} (v : s.Idx → EReal) (i : s.Idx) : relu v i = max (v i) (Ideal.ofBits .f32 0x00000000#32) := rfl

end Cert.Layer

namespace Cert.KernelIdeal.Relu

open Cert.KernelIdeal Cert.KernelIdeal.Gen Cert.Layer

/-- What the second kernel's body stores is the rectifier of the block it loaded. -/
theorem pay_eq (x : Vec Ideal S10000x128 .f32) : k1_pay1 x = relu x := by
  funext j
  show max (shapeCast S10000x128 x shapeCasts_S10000x128_S10000x128 j) (Ideal.ofBits .f32 0x00000000#32) = max (x j) _
  rw [shapeCast_self]

end Cert.KernelIdeal.Relu

namespace Cert.ReferenceIdeal.Relu

open Cert.ReferenceIdeal Cert.ReferenceIdeal.Facts₀ Cert.Layer

/-- The reference's maximum against the broadcast zero constant is the rectifier. -/
theorem max_eq (X : FVec Ideal S100000x128 .f32) :
    maximumf X (broadcastInDim S100000x128 ![] bcast_S_S100000x128 (constant (F := Ideal) S_ .f32 0x00000000#32)) = relu X := by
  funext i
  rfl

end Cert.ReferenceIdeal.Relu

end
-- ==== Proof.ReluRegion.lean ====
/-
  The second pallas_call writes the rectifier of the array it is given.

  Its grid has 10 points.  At point t the kernel reads rows 10000 t … 10000 t + 9999 of its operand and writes the
  same rows of its result, each entry the larger of the operand's entry and zero.  The operand's window and the
  result's window sit on the same block at every point, so what point t writes back is block t of the rectifier of the
  whole operand; the 10 blocks tile the 100000 rows (row r lies in block r / 10000).
-/
import proofs.«133706_j74019466379479_1_alg».proof.Proof.Gen.KernelIdeal.Frame
import proofs.«133706_j74019466379479_1_alg».proof.Proof.Relu
import Idealize.ShloMosaic.Lib.Pipeline.Value

set_option maxRecDepth 16384

noncomputable section

namespace Cert.KernelIdeal.ReluRegion

open Cert.KernelIdeal Cert.KernelIdeal.Gen Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The rectifier of a block at an entry is the rectifier of the array at the entry the block's entry comes from. -/
theorem relu_congr {s t : Shape} (x : s.Idx → EReal) (A : t.Idx → EReal) (j : s.Idx) (i : t.Idx) (h : x j = A i) :
    relu x j = relu A i := by rw [relu_apply, relu_apply, h]

/-- The printed index maps over the grid: the operand's window sits on the result's block, at column block 0, and
    the row block is below 10. -/
theorem idx_facts : ∀ t : Fin cfg1.N, win1_0.index t (0 : Fin 2) = win1_1.index t (0 : Fin 2)
    ∧ win1_0.index t (1 : Fin 2) = win1_1.index t (1 : Fin 2)
    ∧ win1_1.index t (0 : Fin 2) ≤ 9
    ∧ win1_1.index t (1 : Fin 2) = 0 :=
  (by decide +kernel : ∀ t : Fin grid1.N, _)

/-- Every row block is some point's. -/
theorem idx_onto : ∀ q0 : Fin 10, ∃ t : Fin cfg1.N, win1_1.index t = ![q0.val, 0] :=
  (by decide +kernel : ∀ q0 : Fin 10, ∃ t : Fin grid1.N, win1_1.index t = ![q0.val, 0])

/-- WHAT POINT t WRITES BACK is block t of the rectifier of the operand array as the region finds it. -/
theorem flushed_eq (c : Dev nD) (t : Fin cfg1.N) :
    (dat1 V c).flushed 1 t = ((cfg1.win 1).blk t).view.read (Elt Ideal) (relu (V c main_v13)) := by
  show (cfg1.win 1).cut (grid1.coords t) ((dat1 V c).after 1 t) = _
  rw [after1_1]
  unfold out1_1
  rw [View.canon_unit_zero hz]
  simp only [View.ld_unit_zero (S := S10000x128) hz]
  rw [Relu.pay_eq]
  obtain ⟨e0, e1, e2, e3⟩ := idx_facts t
  funext j
  show relu (s := S10000x128) (iblk1 V c 0 t) j = relu (s := S100000x128) (V c main_v13) (((cfg1.win 1).blk t).view.emb j)
  refine relu_congr (s := S10000x128) (t := S100000x128) _ _ _ _ ?_
  show V c main_v13 (((cfg1.win 0).blk t).view.emb j) = V c main_v13 (((cfg1.win 1).blk t).view.emb j)
  refine congrArg _ (funext fun a => Fin.ext ?_)
  match a with
  | ⟨0, _⟩ => show win1_0.index t (0 : Fin 2) * 10000 + 1 * (j 0).val = win1_1.index t (0 : Fin 2) * 10000 + 1 * (j 0).val; omega
  | ⟨1, _⟩ => show win1_0.index t (1 : Fin 2) * 128 + 1 * (j 1).val = win1_1.index t (1 : Fin 2) * 128 + 1 * (j 1).val; omega

/-- An index of the result array is in point t's block iff each coordinate is in the block's range on its axis. -/
theorem mem_blk (t : Fin cfg1.N) (i : S100000x128.Idx) :
    i ∈ ((cfg1.win 1).blk t).view.set ↔ ∀ a : Fin 2, win1_1.index t a * S10000x128.size a ≤ (i a).val ∧ (i a).val < win1_1.index t a * S10000x128.size a + S10000x128.size a := by
  show i ∈ ((View.whole main_v14).slice (win1_1.rect t)).set ↔ _
  rw [View.set_slice_whole, Rect.mem_set_unit]
  exact Iff.rfl

/-- The 10 row blocks cover the result array: row r lies in block r / 10000. -/
theorem cover (i : S100000x128.Idx) :
    ∃ t : Fin cfg1.N, (cfg1.win 1).flush t = true ∧ i ∈ ((cfg1.win 1).blk t).view.set := by
  have hi0 : (i 0).val < 100000 := (i 0).isLt
  have hi1 : (i 1).val < 128 := (i 1).isLt
  obtain ⟨t, ht⟩ := idx_onto ⟨(i 0).val / 10000, by omega⟩
  have q0 : win1_1.index t (0 : Fin 2) = (i 0).val / 10000 := congrFun ht 0
  have q1 : win1_1.index t (1 : Fin 2) = 0 := congrFun ht 1
  refine ⟨t, flush1_1 t, ?_⟩
  rw [mem_blk]
  intro a
  match a with
  | ⟨0, _⟩ => show win1_1.index t (0 : Fin 2) * 10000 ≤ (i 0).val ∧ (i 0).val < win1_1.index t (0 : Fin 2) * 10000 + 10000; omega
  | ⟨1, _⟩ => show win1_1.index t (1 : Fin 2) * 128 ≤ (i 1).val ∧ (i 1).val < win1_1.index t (1 : Fin 2) * 128 + 128; omega

/-- THE RESULT ARRAY after the region: the rectifier of the operand array the region found. -/
theorem final (c : Dev nD) : (dat1 V c).arrAt 1 cfg1.N = relu (V c main_v13) :=
  (dat1 V c).arrAt_eq_of_cover 1 (relu (V c main_v13)) (fun t _ => flushed_eq V c t) cover

end Cert.KernelIdeal.ReluRegion

end
-- ==== Proof.Edges.lean ====
/-
  The edge stage both programs share, as one function.

  Given the projected node features H, each edge e reads row col e of H (a negative index wrapped by 100000 first),
  scales it by the edge's weight, and the scaled rows are added into row row e of an array of zeros.  Both programs
  spell this with the same sixteen host operations, so it is named once and never opened: the certificate only needs
  that both programs apply it to equal arguments.
-/
import proofs.«133706_j74019466379479_1_alg».proof.Proof.Gen.KernelIdeal.Frame
import proofs.«133706_j74019466379479_1_alg».proof.Proof.Gen.ReferenceIdeal
import Idealize.ShloMosaic.Lib.StableHlo.Run
import Idealize.ShloMosaic.PureOps.Ideal

noncomputable section

open Idealize.ShloMosaic Idealize.ShloMosaic.TcCoe Idealize.SL.Sem Idealize.ShloMosaic.StableHlo

namespace Cert.KernelIdeal.Edges

open Cert.KernelIdeal Cert.KernelIdeal.Gen

/-- Gather the rows H[col], scale each by its edge's weight, and add them into the rows named by row, from zeros. -/
def agg (H : (⟨S100000x128, .f32⟩ : BufTy).Contents (Elt Ideal)) (row col : (⟨S1600000, .i32⟩ : BufTy).Contents (Elt Ideal))
    (w : (⟨S1600000, .f32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 row)
    (mulf (broadcastInDim S1600000x128 ![0, 1] bcast_S1600000x1_S1600000x128_0_1 (broadcastInDim S1600000x1 ![0] bcast_S1600000_S1600000x1_0 w))
      (Host.gather gather_S100000x128_S1600000x1_S1600000x128_1_0_n_n_0_1_1128 H
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

variable (m : (ℓ : Loc nD τ sig) → Buf (Elt Ideal) ℓ) (ρ : Dev nD → PrngReg)

/-- Between the two pallas_calls: the second one's operand holds the edge stage of the first one's result and of the
    three edge arrays, as they stand when the first region is left. -/
theorem operand (c : Dev nD) :
    V2 m ρ c main_v13 = agg (W1 m ρ c (Proc.devRef .tc main_v0)) (W1 m ρ c (Proc.devRef .tc main_arg3))
      (W1 m ρ c (Proc.devRef .tc main_arg4)) (W1 m ρ c (Proc.devRef .tc main_arg5)) := by
  show StableHlo.after hostOps1 (W1 m ρ c) (Proc.devRef .tc main_v13) = _
  after_results <;> rfl

end Cert.KernelIdeal.Edges

namespace Cert.ReferenceIdeal.Edges

open Cert.ReferenceIdeal Cert.ReferenceIdeal.Facts₀

/-- The reference's spelling of the edge stage is the same function: its records of dimension numbers are the
    kernel program's, field by field. -/
theorem agg_eq (H : (⟨S100000x128, .f32⟩ : BufTy).Contents (Elt Ideal)) (row col : (⟨S1600000, .i32⟩ : BufTy).Contents (Elt Ideal))
    (w : (⟨S1600000, .f32⟩ : BufTy).Contents (Elt Ideal)) :
    Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 row)
      (mulf (broadcastInDim S1600000x128 ![0, 1] bcast_S1600000x1_S1600000x128_0_1 (broadcastInDim S1600000x1 ![0] bcast_S1600000_S1600000x1_0 w))
        (Host.gather gather_S100000x128_S1600000x1_S1600000x128_1_0_n_n_0_1_1128 H
          (broadcastInDim S1600000x1 ![0] bcast_S1600000_S1600000x1_0
            (select (cmpi .slt col (broadcastInDim S1600000 ![] bcast_S_S1600000 (constantI S_ 32 0#32)))
              (addi col (broadcastInDim S1600000 ![] bcast_S_S1600000 (constantI S_ 32 100000#32))) col))))
      = Cert.KernelIdeal.Edges.agg H row col w := rfl

end Cert.ReferenceIdeal.Edges

end
-- ==== Proof.Whole.lean ====
/-
  The kernel program's run, with its result named.

  The program is: the first pallas_call (the dense projection into a fresh array), sixteen host operations (the edge
  stage, reading that array and the three edge arrays), the second pallas_call (the rectifier of the edge stage's
  result).  No segment writes an argument array, so each segment finds the arguments as launched; the result array ends
  holding  relu (agg (proj x mask W) row col w)  of the launched arguments.
-/
import proofs.«133706_j74019466379479_1_alg».proof.Proof.Gen.KernelIdeal.Frame
import proofs.«133706_j74019466379479_1_alg».proof.Proof.ProjRegion
import proofs.«133706_j74019466379479_1_alg».proof.Proof.ReluRegion
import proofs.«133706_j74019466379479_1_alg».proof.Proof.Edges

set_option maxRecDepth 16384

noncomputable section

namespace Cert.KernelIdeal.Whole

open Cert.KernelIdeal Cert.KernelIdeal.Gen Cert.Layer
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The program's result as one function of the launched argument arrays. -/
def result (c : Dev nD) : (⟨S100000x128, .f32⟩ : BufTy).Contents (Elt Ideal) :=
  relu (Edges.agg (proj (m ((c.tc : Thread nD τ).loc main_arg0)) (m ((c.tc : Thread nD τ).loc main_arg1)) (m ((c.tc : Thread nD τ).loc main_arg2)))
    (m ((c.tc : Thread nD τ).loc main_arg3)) (m ((c.tc : Thread nD τ).loc main_arg4)) (m ((c.tc : Thread nD τ).loc main_arg5)))

/-- When the first region is left, its result array holds the dense projection of the launched arguments. -/
theorem W1_projected (c : Dev nD) :
    W1 m ρ c (Proc.devRef .tc main_v0)
      = proj (m ((c.tc : Thread nD τ).loc main_arg0)) (m ((c.tc : Thread nD τ).loc main_arg1)) (m ((c.tc : Thread nD τ).loc main_arg2)) :=
  (W1_arr m ρ c 3).trans (ProjRegion.final (V0 m ρ) c)

/-- The first region leaves the edge arrays as launched. -/
theorem W1_main_arg3 (c : Dev nD) : W1 m ρ c (Proc.devRef .tc main_arg3) = m ((c.tc : Thread nD τ).loc main_arg3) :=
  W1_of_ne m ρ c main_arg3 (by decide)
theorem W1_main_arg4 (c : Dev nD) : W1 m ρ c (Proc.devRef .tc main_arg4) = m ((c.tc : Thread nD τ).loc main_arg4) :=
  W1_of_ne m ρ c main_arg4 (by decide)
theorem W1_main_arg5 (c : Dev nD) : W1 m ρ c (Proc.devRef .tc main_arg5) = m ((c.tc : Thread nD τ).loc main_arg5) :=
  W1_of_ne m ρ c main_arg5 (by decide)

/-- At the end the result array holds the program's result. -/
theorem W3_result (c : Dev nD) : W3 m ρ c (Proc.devRef .tc main_v14) = result m c :=
  calc W3 m ρ c (Proc.devRef .tc main_v14)
    _ = (dat1 (V2 m ρ) c).arrAt 1 cfg1.N := W3_arr m ρ c 1
    _ = relu (V2 m ρ c main_v13) := ReluRegion.final (V2 m ρ) c
    _ = relu (Edges.agg (W1 m ρ c (Proc.devRef .tc main_v0)) (W1 m ρ c (Proc.devRef .tc main_arg3))
          (W1 m ρ c (Proc.devRef .tc main_arg4)) (W1 m ρ c (Proc.devRef .tc main_arg5))) := congrArg relu (Edges.operand m ρ c)
    _ = result m c := by rw [W1_projected, W1_main_arg3, W1_main_arg4, W1_main_arg5]; rfl

set_option backward.isDefEq.respectTransparency.types false in
/-- Every weakly fair execution of the program terminates, nothing faulting, with the result array at the program's
    result and the argument arrays as launched: the launch theorem over the program's three segments, the last thread
    state read at the result array and at each argument array. -/
theorem run : θ_run defs (onTc (τ := τ) (main (F := Ideal))) ⟨m, fun _ => 0, ρ⟩ (fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v14 (by decide))).trans (W3_result m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Whole

end
-- ==== Proof.RefValue.lean ====
/-
  The reference's result is the same function of the arguments as the kernel program's.

  The reference multiplies x by the mask entry by entry, takes one dot_general with the weights (the dense projection),
  applies the shared edge stage, and takes the maximum with a broadcast zero (the rectifier).  So its result term is
  relu (agg (proj x mask W) row col w), the kernel program's result.
-/
import proofs.«133706_j74019466379479_1_alg».proof.Proof.Gen.ReferenceIdeal.Run
import proofs.«133706_j74019466379479_1_alg».proof.Proof.Dense
import proofs.«133706_j74019466379479_1_alg».proof.Proof.Relu
import proofs.«133706_j74019466379479_1_alg».proof.Proof.Edges

noncomputable section

open Idealize.ShloMosaic

namespace Cert.ReferenceIdeal.RefValue

open Cert.ReferenceIdeal Cert.ReferenceIdeal.Facts₀ Cert.Layer

/-- The reference run's result term at arguments a0 … a5 is the rectifier of the edge stage of the dense projection. -/
theorem result_eq (a0 a1 : FVec Ideal S100000x256 .f32) (a2 : FVec Ideal S256x128 .f32)
    (a3 a4 : (⟨S1600000, .i32⟩ : BufTy).Contents (Elt Ideal)) (a5 : (⟨S1600000, .f32⟩ : BufTy).Contents (Elt Ideal)) :
    maximumf (Host.scatterAdd (F := Ideal) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 a3)
        (mulf (broadcastInDim S1600000x128 ![0, 1] bcast_S1600000x1_S1600000x128_0_1 (broadcastInDim S1600000x1 ![0] bcast_S1600000_S1600000x1_0 a5))
          (Host.gather gather_S100000x128_S1600000x1_S1600000x128_1_0_n_n_0_1_1128
            (Host.dotGeneral (φ₁ := .f32) (φ₂ := .f32) dot_S100000x256_S256x128_S100000x128_1_0_0_1_n_n none (mulf a0 a1) a2)
            (broadcastInDim S1600000x1 ![0] bcast_S1600000_S1600000x1_0
              (select (cmpi .slt a4 (broadcastInDim S1600000 ![] bcast_S_S1600000 (constantI S_ 32 0#32)))
                (addi a4 (broadcastInDim S1600000 ![] bcast_S_S1600000 (constantI S_ 32 100000#32))) a4)))))
      (broadcastInDim S100000x128 ![] bcast_S_S100000x128 (constant (F := Ideal) S_ .f32 0x00000000#32))
    = relu (Cert.KernelIdeal.Edges.agg (proj a0 a1 a2) a3 a4 a5) :=
  (Relu.max_eq _).trans (congrArg relu ((Edges.agg_eq _ a3 a4 a5).trans
    (congrArg (fun H => Cert.KernelIdeal.Edges.agg H a3 a4 a5) (Dense.dot_eq a0 a1 a2))))

end Cert.ReferenceIdeal.RefValue

end
-- ==== Proof.lean ====
/-
  The kernel program and the reference compute one function on the extended reals.

  Both programs are  relu (agg (proj x mask W) row col w):  the dense projection proj x mask W = (x * mask) W, the edge
  stage agg (gather the projected rows named by col, scale each by its edge weight, add them into the rows named by row,
  from zeros), and the rectifier.  The kernel program forms the projection in a pallas_call over 25 blocks of 4000 rows
  (a band of rows of a product is the product of the band) and the rectifier in a second pallas_call over 10 blocks of
  10000 rows; between them it runs the same sixteen host operations as the reference, so the edge stage is one
  function applied to equal arguments and is never opened.  The two sides are the same sums of the same products: no
  step uses finiteness of the inputs.  The idealization rewrote nothing, so its conjunct is trivial.
-/
import proofs.«133706_j74019466379479_1_alg».proof.Defs
import proofs.«133706_j74019466379479_1_alg».proof.Proof.Gen.Kernel
import proofs.«133706_j74019466379479_1_alg».proof.Proof.Gen.Kernel.Frame
import proofs.«133706_j74019466379479_1_alg».proof.Proof.Gen.KernelIdeal
import proofs.«133706_j74019466379479_1_alg».proof.Proof.Gen.KernelIdeal.Frame
import proofs.«133706_j74019466379479_1_alg».proof.Proof.Gen.ReferenceIdeal
import proofs.«133706_j74019466379479_1_alg».proof.Proof.Gen.Pre_finite_inputs
import proofs.«133706_j74019466379479_1_alg».proof.Proof.Gen.ReferenceIdeal.Run
import proofs.«133706_j74019466379479_1_alg».proof.Proof.Whole
import proofs.«133706_j74019466379479_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at relu (agg (proj x mask W) row col w) of arguments that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [e0, e1, e2, e3, e4, e5]
  exact Cert.ReferenceIdeal.RefValue.result_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
